-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x512 : Shape := ⟨2, ![8192, 512]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192 .f32) (main_arg1 : FVec F S8192 .f32) (main_arg2 : FVec F S8192x512 .f32) (main_arg3 : FVec F S8192x512 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Kernel.lean ====
abbrev S8192 : Shape := ⟨1, ![8192]⟩
abbrev S8192x512 : Shape := ⟨2, ![8192, 512]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S2048x512 : Shape := ⟨2, ![2048, 512]⟩
abbrev S1x1024 : Shape := ⟨2, ![1, 1024]⟩
abbrev S2048x1024 : Shape := ⟨2, ![2048, 1024]⟩
abbrev S1024 : Shape := ⟨1, ![1024]⟩

abbrev nBuf : Space → Nat
  | .hbm => 33
  | .vmem => 11
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x512, .bf16⟩
  | .hbm, ⟨23, _⟩ => ⟨S8192x512, .f32⟩
  | .hbm, ⟨24, _⟩ => ⟨S8192x512, .f32⟩
  | .hbm, ⟨25, _⟩ => ⟨S8192x512, .bf16⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S1x8192 : S8192.ShapeCasts S1x8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S2048x1024_S1024 : S2048x1024.Reduces [0] S1024
  shapeCasts_S1024_S1x1024 : S1024.ShapeCasts S1x1024
  reducesTo_S1x8192_S_d0_1 : S1x8192.ReducesTo [0, 1] S_
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v8) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192 : Shape := ⟨1, ![8192]⟩
abbrev S8192x512 : Shape := ⟨2, ![8192, 512]⟩
abbrev S_ : Shape := ⟨0, ![]⟩
abbrev S8192x1 : Shape := ⟨2, ![8192, 1]⟩
abbrev S8192x8192 : Shape := ⟨2, ![8192, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .i1⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192x512, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_5 : Ref sig .tc := ⟨.hbm, 53, rfl⟩
abbrev main_v22 : Ref sig .tc := ⟨.hbm, 54, rfl⟩
abbrev main_cst_6 : Ref sig .tc := ⟨.hbm, 55, rfl⟩
abbrev main_v23 : Ref sig .tc := ⟨.hbm, 56, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S8192x8192_S8192_d1 : S8192x8192.ReducesTo [1] S8192
  reducesTo_S8192_S_d0 : S8192.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Pieces.lean ====
/-
  What one run of the kernel body leaves behind, as values.

  The body keeps a running maximum in a scratch row of 1024 entries.  At the first memory tile of a feature tile it
  resets the row to -1, at every tile it replaces the row by the entrywise maximum of the row and the column maxima of
  the tile's product, and at the last memory tile it also writes the output row from the updated scratch row and the
  two label rows.  Each case's stores cover their buffers with whole-row stores, so what is left is the last store's
  value.
-/
import proofs.«146312_j46334107189284_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle tile: the scratch row holding `xs0` ends at its update by the tile. -/
theorem scratch_B (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬cond0_0 i) (hc1 : ¬cond0_1 i)
    (x0 : Vec F S1024x512 .bf16) (x1 : Vec F S2048x512 .bf16) (x2 : Vec F S1x1024 .f32) (x3 : Vec F S1x1024 .f32) (xs0 : Vec F S1x1024 .f32) :
    sout0_B_0 c i arg2 harg2 arg3 harg3 arg4 harg4 arg5 harg5 arg6 harg6 arg7 harg7 hc0 hc1 x0 x1 x2 x3 xs0 = k0_pay2 x1 x0 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg7.read_unread,
    View.ld_unit_zero (S := S2048x512) hz, View.ld_unit_zero (S := S1024x512) hz, View.ld_unit_zero (S := S1x1024) hz]

/-- The first tile: the scratch row is reset to the row of -1 and then updated by the tile. -/
theorem scratch_A (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : cond0_0 i) (hc1 : ¬cond0_1 i)
    (x0 : Vec F S1024x512 .bf16) (x1 : Vec F S2048x512 .bf16) (x2 : Vec F S1x1024 .f32) (x3 : Vec F S1x1024 .f32) :
    sout0_A_0 c i arg2 harg2 arg3 harg3 arg4 harg4 arg5 harg5 arg6 harg6 arg7 harg7 hc0 hc1 x0 x1 x2 x3 = k0_pay2 x1 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg7.read_unread,
    View.ld_unit_zero (S := S2048x512) hz, View.ld_unit_zero (S := S1024x512) hz, View.ld_unit_zero (S := S1x1024) hz]

/-- The last tile: the scratch row holding `xs0` ends at its update by the tile, -/
theorem scratch_C (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬cond0_0 i) (hc1 : cond0_1 i)
    (x0 : Vec F S1024x512 .bf16) (x1 : Vec F S2048x512 .bf16) (x2 : Vec F S1x1024 .f32) (x3 : Vec F S1x1024 .f32) (xs0 : Vec F S1x1024 .f32) :
    sout0_C_0 c i arg2 harg2 arg3 harg3 arg4 harg4 arg5 harg5 arg6 harg6 arg7 harg7 hc0 hc1 x0 x1 x2 x3 xs0 = k0_pay2 x1 x0 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x1024) hz]
  simp only [View.readAt_eq_ld, harg2.read_unread, harg3.read_unread, harg4.read_unread, harg5.read_unread, harg7.read_unread,
    View.ld_unit_zero (S := S2048x512) hz, View.ld_unit_zero (S := S1024x512) hz, View.ld_unit_zero (S := S1x1024) hz]

/-- and the output row is written from the updated scratch row and the two label rows. -/
theorem out_C (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬cond0_0 i) (hc1 : cond0_1 i)
    (x0 : Vec F S1024x512 .bf16) (x1 : Vec F S2048x512 .bf16) (x2 : Vec F S1x1024 .f32) (x3 : Vec F S1x1024 .f32) (xs0 : Vec F S1x1024 .f32) :
    out0_C_4 c i arg2 harg2 arg3 harg3 arg4 harg4 arg5 harg5 arg6 harg6 arg7 harg7 hc0 hc1 x0 x1 x2 x3 xs0 = k0_pay3 (k0_pay2 x1 x0 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x1024) hz, View.readCov_unit_zero (S := S1x1024) _ hz]
  simp only [View.readAt_eq_ld, harg2.read_unread, harg3.read_unread, harg4.read_unread, harg5.read_unread, harg7.read_unread,
    View.ld_unit_zero (S := S2048x512) hz, View.ld_unit_zero (S := S1024x512) hz, View.ld_unit_zero (S := S1x1024) hz]

end Cert.KernelIdeal.Pieces

end
-- ==== Proof.Accum.lean ====
/-
  The running maximum, grid point by grid point.

  The grid has 8 feature tiles times 4 memory tiles, the memory tile moving fastest: point n works on feature tile
  n / 4 and memory tile n % 4.  At a point with n % 4 = 0 the scratch row restarts from the row of -1 and is updated by
  the tile; at any other point it is the update of what the point before left; at a point with n % 4 = 3 the output row
  is written from the scratch row the same point leaves.
-/
import proofs.«146312_j46334107189284_2_alg».proof.Proof.Pieces

noncomputable section

open Idealize.ShloMosaic Idealize.ShloMosaic.TcCoe Idealize.SL.Sem

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- At a first memory tile the scratch row restarts. -/
theorem scratch_first (c : Dev nD) (t : Fin cfg0.N) (h0 : t.val % 4 = 0) (h1 : ¬t.val % 4 = 3) :
    (outsAt0 m c t.val t.isLt).2 = k0_pay2 (iblk m c 1 t) (iblk m c 0 t) (k0_pay1 (F := F)) := by
  rw [outsAt0_A m c t h0 h1]
  dsimp only
  exact scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At any other tile it is the update of what the point before left. -/
theorem scratch_next (c : Dev nD) (t : Fin cfg0.N) (h0 : ¬t.val % 4 = 0) :
    (outsAt0 m c t.val t.isLt).2
      = k0_pay2 (iblk m c 1 t) (iblk m c 0 t) (outsAt0 m c (t.val - 1) (Nat.lt_of_le_of_lt (Nat.sub_le _ _) t.isLt)).2 := by
  by_cases h1 : t.val % 4 = 3
  · rw [outsAt0_C m c t h0 h1]
    dsimp only
    exact scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _
  · rw [outsAt0_B m c t h0 h1]
    dsimp only
    exact scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _

/-- At a last memory tile the output row is written from the scratch row the same point leaves. -/
theorem out_last (c : Dev nD) (t : Fin cfg0.N) (h0 : ¬t.val % 4 = 0) (h1 : t.val % 4 = 3) :
    (outsAt0 m c t.val t.isLt).1 = k0_pay3 (outsAt0 m c t.val t.isLt).2 (iblk m c 2 t) (iblk m c 3 t) := by
  rw [outsAt0_C m c t h0 h1]
  dsimp only
  rw [out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _,
    scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _]

end Cert.KernelIdeal.Accum

end
-- ==== Proof.LibRowsDot.lean ====
/-
  A MATRIX PRODUCT WITH THE RIGHT OPERAND TRANSPOSED, at the ideal values.

  An `[R, K]` array `a` times the transpose of an `[N, K]` array `w` contracts the columns of both: entry `(p, c)` of the
  result is `∑ k, a (p, k) · w (c, k)`, row `p` of `a` against row `c` of `w` (with `w = a` it is the Gram matrix of the rows
  of `a`).  Its dimension record is `DotDims.transposedRhs R K N` (contract axis 1 with axis 1, keep axis 0 of each, no
  batch axes); a printed program's record with the same six lists is that record by unfolding.  Proved here once for
  every `R`, `K`, `N`:
  • there is one contracted axis, of extent `K` (`rank_contr`, `size_contr`);
  • at the output index `(p, c)` and contraction position `k` the left operand is read at `(p, k)` and the right operand
    at `(c, k)` (`lhs_at`, `rhs_at`);
  • so the vector unit's product into a zero accumulator is that sum (`kdotT_apply`), and so is the host's
    `dot_general` over the same record (`hdotT_apply`).
  The sum is read off term by term: no algebra of the extended reals is used, and nothing needs to be finite.
-/
import Idealize.ShloMosaic.Lib.ValueIdx
import Idealize.ShloMosaic.PureOps.Ideal.Laws

noncomputable section

open scoped BigOperators

namespace Cert.RowsDot

open Idealize.ShloMosaic Idealize.ShloMosaic.ValueIdx

section facts

variable (R K N : ℕ)

/-- One axis is contracted. -/
theorem rank_contr : (DotDims.transposedRhs R K N).contr.rank = 1 := rfl

/-- Its extent is the shared extent `K`. -/
theorem size_contr : (DotDims.transposedRhs R K N).contr.size ⟨0, Nat.one_pos⟩ = K := rfl

/-- The left operand's index at output `(p, c)`, contraction position `k`: row `p`, column `k`. -/
theorem lhs_at (p : Fin R) (c : Fin N) (k : Fin K) :
    (DotDims.transposedRhs R K N).lhsIdx (ix2 p c) ((contrEquiv1 (DotDims.transposedRhs R K N) K rfl rfl).symm k) = ix2 p k := by
  have hk := contrEquiv1_symm_val (DotDims.transposedRhs R K N) K rfl rfl k
  funext a
  apply Fin.ext
  match a with
  | ⟨0, _⟩ =>
    show ((DotDims.transposedRhs R K N).lhsIdx (ix2 p c) ((contrEquiv1 (DotDims.transposedRhs R K N) K rfl rfl).symm k) 0).val = p.val
    unfold DotDims.lhsIdx
    rw [dif_neg (show ¬ (0 : Fin 2) ∈ (DotDims.transposedRhs R K N).lhsBatch from List.not_mem_nil),
      dif_pos (show (0 : Fin 2) ∈ (DotDims.transposedRhs R K N).lhsNonContracting from List.mem_singleton.mpr rfl)]
    rfl
  | ⟨1, _⟩ => exact ((DotDims.transposedRhs R K N).lhsIdx_val_of_single rfl (ix2 p c) _).trans hk

/-- The right operand's index at output `(p, c)`, contraction position `k`: row `c`, column `k`. -/
theorem rhs_at (p : Fin R) (c : Fin N) (k : Fin K) :
    (DotDims.transposedRhs R K N).rhsIdx (ix2 p c) ((contrEquiv1 (DotDims.transposedRhs R K N) K rfl rfl).symm k) = ix2 c k := by
  have hk := contrEquiv1_symm_val (DotDims.transposedRhs R K N) K rfl rfl k
  funext a
  apply Fin.ext
  match a with
  | ⟨0, _⟩ =>
    show ((DotDims.transposedRhs R K N).rhsIdx (ix2 p c) ((contrEquiv1 (DotDims.transposedRhs R K N) K rfl rfl).symm k) 0).val = c.val
    unfold DotDims.rhsIdx
    rw [dif_neg (show ¬ (0 : Fin 2) ∈ (DotDims.transposedRhs R K N).rhsBatch from List.not_mem_nil),
      dif_pos (show (0 : Fin 2) ∈ (DotDims.transposedRhs R K N).rhsNonContracting from List.mem_singleton.mpr rfl)]
    rfl
  | ⟨1, _⟩ => exact ((DotDims.transposedRhs R K N).rhsIdx_val_of_single rfl (ix2 p c) _).trans hk

end facts

/-- The sum over the one-axis contraction index, re-indexed by that axis's coordinate. -/
theorem contr_sum {R K N : ℕ} {φ₁ φ₂ : FTy} (l : FVec Ideal ⟨2, ![R, K]⟩ φ₁) (r : FVec Ideal ⟨2, ![N, K]⟩ φ₂)
    (p : Fin R) (c : Fin N) :
    (∑ q : (DotDims.transposedRhs R K N).contr.Idx,
        l ((DotDims.transposedRhs R K N).lhsIdx (ix2 p c) q) * r ((DotDims.transposedRhs R K N).rhsIdx (ix2 p c) q))
      = ∑ k : Fin K, l (ix2 p k) * r (ix2 c k) := by
  rw [← Equiv.sum_comp (contrEquiv1 (DotDims.transposedRhs R K N) K rfl rfl).symm]
  exact Finset.sum_congr rfl fun k _ => by rw [lhs_at R K N p c k, rhs_at R K N p c k]

/-- The vector unit's product into the zero accumulator, read at `(p, c)`: row `p` of `a` against row `c` of `w`. -/
theorem kdotT_apply {R K N : ℕ} {φ₁ φ₂ : FTy} (prec : Option ContractPrecision)
    (a : FVec Ideal ⟨2, ![R, K]⟩ φ₁) (w : FVec Ideal ⟨2, ![N, K]⟩ φ₂) (p : Fin R) (c : Fin N) :
    matmul (DotDims.transposedRhs R K N) prec a w (constant ⟨2, ![R, N]⟩ .f32 0x00000000#32) (ix2 p c)
      = ∑ k : Fin K, a (ix2 p k) * w (ix2 c k) := by
  show FloatOps.matmul (DotDims.transposedRhs R K N) prec a w (constant ⟨2, ![R, N]⟩ .f32 0x00000000#32) (ix2 p c) = _
  rw [Ideal.matmul_constant_zero_apply]
  exact contr_sum a w p c

/-- The host's `dot_general` over the same record, read at `(p, c)`: the same sum. -/
theorem hdotT_apply {R K N : ℕ} {φ₁ φ₂ : FTy} (prec : Option ContractPrecision)
    (a : FVec Ideal ⟨2, ![R, K]⟩ φ₁) (w : FVec Ideal ⟨2, ![N, K]⟩ φ₂) (p : Fin R) (c : Fin N) :
    Host.dotGeneral (DotDims.transposedRhs R K N) prec a w (ix2 p c) = ∑ k : Fin K, a (ix2 p k) * w (ix2 c k) := by
  simp only [Host.dotGeneral]
  rw [Ideal.dotGeneral_apply]
  exact contr_sum a w p c

end Cert.RowsDot

end
-- ==== Proof.LibColumnMax.lean ====
/-
  The maximum down the rows of a matrix, read at a column (a general lemma file: it imports only the library and is
  generic in the extents).

  A maximum-reduction of an [a, b] array along its first axis leaves a vector of length b; at column j it is the fold of
  max, started from the value of the word of −∞, over the rows r of the entry (r, j), every index spelt by its
  coordinates.
-/
import Idealize.ShloMosaic.Lib.ValueIdx
import Idealize.ShloMosaic.PureOps.Ideal.Laws

namespace Cert.LibColumnMax

open Idealize.ShloMosaic Idealize.ShloMosaic.ValueIdx

/-- Over [a, b] reduced along its rows, the index above column j with coordinate r is (r, j). -/
theorem lift_ab_first {a b : ℕ} (h : Shape.Reduces ⟨2, ![a, b]⟩ [0] ⟨1, ![b]⟩) (j : Fin b) (r : Fin a) :
    h.lift (ix1 j) r = ix2 r j := by
  funext x
  match x with
  | ⟨0, _⟩ => exact Fin.ext rfl
  | ⟨1, _⟩ => exact Fin.ext rfl

/-- The maximum down the rows of an [a, b] array of extended reals, at column j. -/
theorem max_ab_first {a b : ℕ} (src : FVec Ideal ⟨2, ![a, b]⟩ .f32)
    (h : Shape.Reduces ⟨2, ![a, b]⟩ [0] ⟨1, ![b]⟩) (hacc : (0xFF800000#32 : BitVec 32) = 0xFF800000#32) (j : Fin b) :
    multiReduction (s := ⟨2, ![a, b]⟩) .maximumf ([0] : List (Fin 2)) ⟨1, ![b]⟩ src 0xFF800000#32 h (.inl rfl) hacc (ix1 j)
      = (Finset.univ : Finset (Fin a)).fold max (Ideal.ofBits .f32 0xFF800000#32) (fun r => src (ix2 r j)) :=
  (Ideal.multiReduction_maximumf_single src 0xFF800000#32 h (.inl rfl) hacc (ix1 j)).trans
    (Finset.fold_congr fun r _ => congrArg src (lift_ab_first h j r))

end Cert.LibColumnMax
-- ==== Proof.Spec.lean ====
/-
  The loss row, and the running maximum against the plain maximum (no program appears here).

  For matrices A (feature rows) and B (memory rows) with 512 columns, the similarity of feature row n and memory
  row r is the inner product ∑ₖ A(n,k) B(r,k).  One side takes the maximum over all 8192 memory rows at once (a fold
  of max started at −∞).  The other starts from −1 and folds in, one after the other, the maxima of four tiles of 2048
  rows.  The two agree as soon as every similarity of row n is at least −1: then the starting value −1 is absorbed.

  The per-entry loss is (softplus p − p t)(1 + 2 (1 − v)); softplus is spelt as max p 0 + log1p (exp (−|p − 0|)), the
  negation once as a difference from 0 and once as a negation.
-/
import Idealize.ShloMosaic.Lib.ValueIdx
import Idealize.ShloMosaic.PureOps.Ideal.Laws
import Mathlib.Data.Finset.Fold

noncomputable section

open scoped BigOperators
open Idealize.ShloMosaic Idealize.ShloMosaic.ValueIdx

namespace Cert.Spec

/-- A matrix of 8192 rows and 512 columns of extended reals. -/
abbrev Mat := (⟨2, ![8192, 512]⟩ : Shape).Idx → EReal

abbrev zero : EReal := Ideal.ofBits .f32 0x00000000#32
abbrev one : EReal := Ideal.ofBits .f32 0x3F800000#32
abbrev two : EReal := Ideal.ofBits .f32 0x40000000#32
abbrev negOne : EReal := Ideal.ofBits .f32 0xBF800000#32
abbrev negInf : EReal := Ideal.ofBits .f32 0xFF800000#32

/-! ## The loss entry -/

/-- softplus with the inner negation written as a difference from zero. -/
def softplusK (p : EReal) : EReal :=
  Scalar.select (Ideal.cmp .one (p - zero) (p - zero)) (p + zero)
    (max p zero + Ideal.log1p (Ideal.exp (zero - max (p - zero) (-(p - zero)))))

/-- softplus with the inner negation written as a negation. -/
def softplusH (p : EReal) : EReal :=
  Scalar.select (Ideal.cmp .une (p - zero) (p - zero)) (p + zero)
    (max p zero + Ideal.log1p (Ideal.exp (-(max (p - zero) (-(p - zero))))))

theorem softplusK_eq (p : EReal) : softplusK p = softplusH p := by
  unfold softplusK softplusH
  rw [show zero - max (p - zero) (-(p - zero)) = -(max (p - zero) (-(p - zero))) from by
    rw [show zero = 0 from Ideal.ofBits_zero_f32]; exact zero_sub _]
  rfl

/-- The loss entry from the two labels and the largest similarity `v`. -/
def lossK (p t v : EReal) : EReal := (softplusK p - p * t) * (one + two * (one - v))

def lossH (p t v : EReal) : EReal := (softplusH p - p * t) * (one + two * (one - v))

theorem lossK_eq (p t v : EReal) : lossK p t v = lossH p t v := by
  unfold lossK lossH; rw [softplusK_eq]

/-! ## The two maxima -/

/-- Memory row `r` of tile `q`. -/
def rowOf (q : Fin 4) (r : Fin 2048) : Fin 8192 := ⟨2048 * q.val + r.val, by omega⟩

/-- The largest similarity of feature row `n` within tile `q` (−∞ over no rows). -/
def tile (A B : Mat) (q : Fin 4) (n : Fin 8192) : EReal :=
  (Finset.univ : Finset (Fin 2048)).fold max negInf (fun r => ∑ k : Fin 512, B (ix2 (rowOf q r) k) * A (ix2 n k))

/-- The running maximum: −1, then the four tiles. -/
def kmax (A B : Mat) (n : Fin 8192) : EReal :=
  max (max (max (max negOne (tile A B 0 n)) (tile A B 1 n)) (tile A B 2 n)) (tile A B 3 n)

/-- The plain maximum over all memory rows. -/
def hmax (A B : Mat) (n : Fin 8192) : EReal :=
  (Finset.univ : Finset (Fin 8192)).fold max negInf (fun r => ∑ k : Fin 512, A (ix2 n k) * B (ix2 r k))

theorem tile_le_hmax (A B : Mat) (q : Fin 4) (n : Fin 8192) : tile A B q n ≤ hmax A B n := by
  unfold tile hmax
  rw [Finset.fold_max_le]
  refine ⟨(Finset.le_fold_max _).mpr (Or.inl le_rfl), fun r _ =>
    (Finset.le_fold_max _).mpr (Or.inr ⟨rowOf q r, Finset.mem_univ _, ?_⟩)⟩
  exact le_of_eq (Finset.sum_congr rfl fun k _ => mul_comm _ _)

theorem tile_le_kmax (A B : Mat) (q : Fin 4) (n : Fin 8192) : tile A B q n ≤ kmax A B n := by
  unfold kmax
  match q with
  | ⟨0, _⟩ => exact le_max_of_le_left (le_max_of_le_left (le_max_of_le_left (le_max_right _ _)))
  | ⟨1, _⟩ => exact le_max_of_le_left (le_max_of_le_left (le_max_right _ _))
  | ⟨2, _⟩ => exact le_max_of_le_left (le_max_right _ _)
  | ⟨3, _⟩ => exact le_max_right _ _

theorem term_le_kmax (A B : Mat) (n r : Fin 8192) : ∑ k : Fin 512, A (ix2 n k) * B (ix2 r k) ≤ kmax A B n := by
  have hq : r.val / 2048 < 4 := by have := r.isLt; omega
  have hr : r.val % 2048 < 2048 := Nat.mod_lt _ (by norm_num)
  have hrow : rowOf ⟨r.val / 2048, hq⟩ ⟨r.val % 2048, hr⟩ = r :=
    Fin.ext (by show 2048 * (r.val / 2048) + r.val % 2048 = r.val; omega)
  refine le_trans ?_ (tile_le_kmax A B ⟨r.val / 2048, hq⟩ n)
  unfold tile
  refine (Finset.le_fold_max _).mpr (Or.inr ⟨⟨r.val % 2048, hr⟩, Finset.mem_univ _, ?_⟩)
  rw [hrow]
  exact le_of_eq (Finset.sum_congr rfl fun k _ => mul_comm _ _)

/-- When no similarity of row `n` is below −1 the running maximum is the plain one. -/
theorem kmax_eq (A B : Mat) (n : Fin 8192) (hb : ∀ r : Fin 8192, negOne ≤ ∑ k : Fin 512, A (ix2 n k) * B (ix2 r k)) :
    kmax A B n = hmax A B n := by
  apply le_antisymm
  · unfold kmax
    refine max_le (max_le (max_le (max_le ?_ (tile_le_hmax A B 0 n)) (tile_le_hmax A B 1 n)) (tile_le_hmax A B 2 n))
      (tile_le_hmax A B 3 n)
    unfold hmax
    exact (Finset.le_fold_max _).mpr (Or.inr ⟨⟨0, by norm_num⟩, Finset.mem_univ _, hb _⟩)
  · unfold hmax
    rw [Finset.fold_max_le]
    refine ⟨le_trans ?_ (tile_le_kmax A B 3 n), fun r _ => term_le_kmax A B n r⟩
    unfold tile
    exact (Finset.le_fold_max _).mpr (Or.inl le_rfl)

end Cert.Spec

end
-- ==== Proof.TileMax.lean ====
/-
  The three values the kernel body stores, read entry by entry over the extended reals.

  • The reset row is -1 in every entry.
  • The update of a row `v` by a tile is, at column y, the larger of v(y) and the maximum over the tile's 2048 memory
    rows r of the inner product of memory row r with feature row y (the maximum is a fold of max started at -∞).
  • The output row is, at column y, the binary cross-entropy of the two label entries times 1 + 2 (1 - v(y)).
-/
import proofs.«146312_j46334107189284_2_alg».proof.Proof.Gen.KernelIdeal.Skeleton
import proofs.«146312_j46334107189284_2_alg».proof.Proof.LibRowsDot
import proofs.«146312_j46334107189284_2_alg».proof.Proof.LibColumnMax
import proofs.«146312_j46334107189284_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.TileMax

open Cert.KernelIdeal Cert.KernelIdeal.Gen

/-- A vector of `b` entries cast to one row of `b` entries reads, at (u, j), the vector at j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]; omega)

/-- The kernel's contraction record is the product with the right operand transposed. -/
theorem record_eq : dot_S2048x512_S1024x512_S2048x1024_1_1_0_0_n_n = DotDims.transposedRhs 2048 512 1024 := rfl

/-- The reset row: -1 everywhere. -/
theorem reset_apply (j : S1x1024.Idx) : k0_pay1 (F := Ideal) j = Ideal.ofBits .f32 0xBF800000#32 := by
  unfold k0_pay1
  simp only [shapeCast_self]
  rfl

/-- The largest, over a tile's memory rows, of the inner products with feature row `y` (−∞ for no rows). -/
def tileMax (v3 : FVec Ideal S2048x512 .bf16) (v5 : FVec Ideal S1024x512 .bf16) (y : Fin 1024) : EReal :=
  (Finset.univ : Finset (Fin 2048)).fold max (Ideal.ofBits .f32 0xFF800000#32)
    (fun r => ∑ k : Fin 512, v3 (ix2 r k) * v5 (ix2 y k))

/-- The update of a row by a tile, at a column. -/
theorem update_apply (v3 : FVec Ideal S2048x512 .bf16) (v5 : FVec Ideal S1024x512 .bf16) (v10 : FVec Ideal S1x1024 .f32)
    (u : Fin 1) (y : Fin 1024) :
    k0_pay2 (F := Ideal) v3 v5 v10 (ix2 u y) = max (v10 (ix2 u y)) (tileMax v3 v5 y) := by
  have e : k0_pay2 (F := Ideal) v3 v5 v10
      = maximumf v10 (shapeCast S1x1024 (multiReduction (F := Ideal) .maximumf [0] S1024
          (matmul dot_S2048x512_S1024x512_S2048x1024_1_1_0_0_n_n none v3 v5 (constant S2048x1024 .f32 0x00000000#32))
          0xFF800000#32 reduces_S2048x1024_S1024 (.inl rfl) rfl) shapeCasts_S1024_S1x1024) := by
    unfold k0_pay2
    simp only [shapeCast_self]
  rw [e]
  show max (v10 (ix2 u y)) _ = _
  refine congrArg (max _) ?_
  refine (shapeCast_b_1b_apply _ _ u y).trans ?_
  refine (Cert.LibColumnMax.max_ab_first _ _ rfl y).trans ?_
  unfold tileMax
  refine Finset.fold_congr fun r _ => ?_
  rw [record_eq]
  exact Cert.RowsDot.kdotT_apply none v3 v5 r y

/-- The output row, at a column: the loss entry of the two labels and the scratch entry. -/
theorem out_row_apply (v18 v25 v27 : FVec Ideal S1x1024 .f32) (u : Fin 1) (y : Fin 1024) :
    k0_pay3 (F := Ideal) v18 v25 v27 (ix2 u y)
      = Cert.Spec.lossK (v25 (ix2 u y)) (v27 (ix2 u y)) (v18 (ix2 u y)) := by
  unfold k0_pay3
  simp only [shapeCast_self]
  rfl

end Cert.KernelIdeal.TileMax

end
-- ==== Proof.KernelRow.lean ====
/-
  The scratch row and the output row at the last memory tile of a feature tile, entry by entry, in terms of the four
  arrays the windows read.

  Grid point t works on feature rows 1024 (t / 4) … and memory rows 2048 (t % 4) …: entry (y, k) of its feature block
  is entry (1024 (t / 4) + y, k) of the feature array, entry (r, k) of its memory block entry (2048 (t % 4) + r, k) of
  the memory array, and entry y of its label blocks entry 1024 (t / 4) + y of the label rows.  At t % 4 = 3 the scratch
  row has been reset at t - 3 and updated at t - 3, …, t, so its entry y is the running maximum of feature row
  1024 (t / 4) + y.
-/
import proofs.«146312_j46334107189284_2_alg».proof.Proof.Accum
import proofs.«146312_j46334107189284_2_alg».proof.Proof.TileMax
import proofs.«146312_j46334107189284_2_alg».proof.Proof.Spec

noncomputable section

open scoped BigOperators
open Idealize.ShloMosaic Idealize.ShloMosaic.TcCoe Idealize.SL.Sem Idealize.ShloMosaic.ValueIdx

namespace Cert.KernelIdeal.KernelRow

open Cert.KernelIdeal Cert.KernelIdeal.Gen Cert.KernelIdeal.TileMax

variable (m : (ℓ : Loc nD τ sig) → Buf (Elt Ideal) ℓ)

/-- The windows' block indices at grid point t. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = t.val / 4
    ∧ win0_3.index t (0 : Fin 2) = 0 ∧ win0_3.index t (1 : Fin 2) = t.val / 4
    ∧ win0_4.index t (0 : Fin 2) = 0 ∧ win0_4.index t (1 : Fin 2) = t.val / 4 :=
  (by decide +kernel : ∀ t : Fin grid0.N, _)

/-- The feature block at a point, at an entry. -/
theorem features_block (c : Dev nD) (s : Fin cfg0.N) (y : Fin 1024) (k : Fin 512) (n : Fin 8192)
    (hn : n.val = 1024 * (s.val / 4) + y.val) :
    (iblk m c 0 s : Vec Ideal S1024x512 .bf16) (ix2 y k) = (V m c main_v8 : S8192x512.Idx → EReal) (ix2 n k) := by
  obtain ⟨e0, e1, -⟩ := idx_facts s
  unfold iblk
  rw [View.read_apply]
  show V m c main_v8 _ = V m c main_v8 _
  refine congrArg _ (funext fun a => Fin.ext ?_)
  match a with
  | ⟨0, _⟩ => show win0_0.index s (0 : Fin 2) * 1024 + 1 * y.val = n.val; rw [e0, hn]; omega
  | ⟨1, _⟩ => show win0_0.index s (1 : Fin 2) * 512 + 1 * k.val = k.val; rw [e1]; omega

/-- The memory block at a point, at an entry. -/
theorem memory_block (c : Dev nD) (s : Fin cfg0.N) (r : Fin 2048) (k : Fin 512) (R : Fin 8192)
    (hR : R.val = 2048 * (s.val % 4) + r.val) :
    (iblk m c 1 s : Vec Ideal S2048x512 .bf16) (ix2 r k) = (V m c main_v11 : S8192x512.Idx → EReal) (ix2 R k) := by
  obtain ⟨-, -, e0, e1, -⟩ := idx_facts s
  unfold iblk
  rw [View.read_apply]
  show V m c main_v11 _ = V m c main_v11 _
  refine congrArg _ (funext fun a => Fin.ext ?_)
  match a with
  | ⟨0, _⟩ => show win0_1.index s (0 : Fin 2) * 2048 + 1 * r.val = R.val; rw [e0, hR]; omega
  | ⟨1, _⟩ => show win0_1.index s (1 : Fin 2) * 512 + 1 * k.val = k.val; rw [e1]; omega

/-- The prediction block at a point, at an entry. -/
theorem predictions_block (c : Dev nD) (s : Fin cfg0.N) (u : Fin 1) (y : Fin 1024) (n : Fin 8192)
    (hn : n.val = 1024 * (s.val / 4) + y.val) :
    (iblk m c 2 s : Vec Ideal S1x1024 .f32) (ix2 u y) = (V m c main_v12 : S1x8192.Idx → EReal) (ix2 u n) := by
  obtain ⟨-, -, -, -, e0, e1, -⟩ := idx_facts s
  unfold iblk
  rw [View.read_apply]
  show V m c main_v12 _ = V m c main_v12 _
  refine congrArg _ (funext fun a => Fin.ext ?_)
  match a with
  | ⟨0, _⟩ => show win0_2.index s (0 : Fin 2) * 1 + 1 * u.val = u.val; rw [e0]; omega
  | ⟨1, _⟩ => show win0_2.index s (1 : Fin 2) * 1024 + 1 * y.val = n.val; rw [e1, hn]; omega

/-- The target block at a point, at an entry. -/
theorem targets_block (c : Dev nD) (s : Fin cfg0.N) (u : Fin 1) (y : Fin 1024) (n : Fin 8192)
    (hn : n.val = 1024 * (s.val / 4) + y.val) :
    (iblk m c 3 s : Vec Ideal S1x1024 .f32) (ix2 u y) = (V m c main_v13 : S1x8192.Idx → EReal) (ix2 u n) := by
  obtain ⟨-, -, -, -, -, -, e0, e1, -⟩ := idx_facts s
  unfold iblk
  rw [View.read_apply]
  show V m c main_v13 _ = V m c main_v13 _
  refine congrArg _ (funext fun a => Fin.ext ?_)
  match a with
  | ⟨0, _⟩ => show win0_3.index s (0 : Fin 2) * 1 + 1 * u.val = u.val; rw [e0]; omega
  | ⟨1, _⟩ => show win0_3.index s (1 : Fin 2) * 1024 + 1 * y.val = n.val; rw [e1, hn]; omega

/-- A point's tile maximum for column y is the tile maximum of the arrays for feature row 1024 (s / 4) + y. -/
theorem tile_eq (c : Dev nD) (s : Fin cfg0.N) (q : Fin 4) (hq : s.val % 4 = q.val) (y : Fin 1024) (n : Fin 8192)
    (hn : n.val = 1024 * (s.val / 4) + y.val) :
    tileMax (iblk m c 1 s) (iblk m c 0 s) y = Cert.Spec.tile (V m c main_v8) (V m c main_v11) q n := by
  unfold tileMax Cert.Spec.tile
  refine Finset.fold_congr fun r _ => Finset.sum_congr rfl fun k _ => ?_
  rw [memory_block m c s r k (Cert.Spec.rowOf q r) (by show 2048 * q.val + r.val = _; rw [hq]),
    features_block m c s y k n hn]

/-- Four updates of the reset row, at a column. -/
theorem four_updates (b0 b1 b2 b3 : FVec Ideal S2048x512 .bf16) (f0 f1 f2 f3 : FVec Ideal S1024x512 .bf16)
    (u : Fin 1) (y : Fin 1024) :
    k0_pay2 (F := Ideal) b3 f3 (k0_pay2 (F := Ideal) b2 f2 (k0_pay2 (F := Ideal) b1 f1 (k0_pay2 (F := Ideal) b0 f0 (k0_pay1 (F := Ideal))))) (ix2 u y)
      = max (max (max (max Cert.Spec.negOne (tileMax b0 f0 y)) (tileMax b1 f1 y)) (tileMax b2 f2 y)) (tileMax b3 f3 y) := by
  rw [update_apply, update_apply, update_apply, update_apply, reset_apply]

/-- The scratch row after the last memory tile of a feature tile: the running maximum of each feature row. -/
theorem scratch_last (c : Dev nD) (t : Fin cfg0.N) (h3 : t.val % 4 = 3) (u : Fin 1) (y : Fin 1024) (n : Fin 8192)
    (hn : n.val = 1024 * (t.val / 4) + y.val) :
    (outsAt0 m c t.val t.isLt).2 (ix2 u y) = Cert.Spec.kmax (V m c main_v8) (V m c main_v11) n := by
  have hN : cfg0.N = 32 := N_0
  have ht := t.isLt
  have e3 := Accum.scratch_next m c t (by omega)
  have e2 := Accum.scratch_next m c ⟨t.val - 1, by omega⟩ (by show ¬(t.val - 1) % 4 = 0; omega)
  have e1 := Accum.scratch_next m c ⟨t.val - 1 - 1, by omega⟩ (by show ¬(t.val - 1 - 1) % 4 = 0; omega)
  have e0 := Accum.scratch_first m c ⟨t.val - 1 - 1 - 1, by omega⟩ (by show (t.val - 1 - 1 - 1) % 4 = 0; omega)
    (by show ¬(t.val - 1 - 1 - 1) % 4 = 3; omega)
  dsimp only at e2 e1 e0
  rw [e3, e2, e1, e0]
  refine (four_updates (iblk m c 1 ⟨t.val - 1 - 1 - 1, by omega⟩) (iblk m c 1 ⟨t.val - 1 - 1, by omega⟩)
    (iblk m c 1 ⟨t.val - 1, by omega⟩) (iblk m c 1 t) (iblk m c 0 ⟨t.val - 1 - 1 - 1, by omega⟩)
    (iblk m c 0 ⟨t.val - 1 - 1, by omega⟩) (iblk m c 0 ⟨t.val - 1, by omega⟩) (iblk m c 0 t) u y).trans ?_
  unfold Cert.Spec.kmax
  rw [tile_eq m c ⟨t.val - 1 - 1 - 1, by omega⟩ 0 (by show (t.val - 1 - 1 - 1) % 4 = 0; omega) y n
      (by show n.val = 1024 * ((t.val - 1 - 1 - 1) / 4) + y.val; omega),
    tile_eq m c ⟨t.val - 1 - 1, by omega⟩ 1 (by show (t.val - 1 - 1) % 4 = 1; omega) y n
      (by show n.val = 1024 * ((t.val - 1 - 1) / 4) + y.val; omega),
    tile_eq m c ⟨t.val - 1, by omega⟩ 2 (by show (t.val - 1) % 4 = 2; omega) y n
      (by show n.val = 1024 * ((t.val - 1) / 4) + y.val; omega),
    tile_eq m c t 3 (by show t.val % 4 = 3; omega) y n hn]

end Cert.KernelIdeal.KernelRow

end
-- ==== Proof.KernelValue.lean ====
/-
  The kernel's result, as one function of the four arrays its windows read.

  Feature tile i = t / 4 writes its output row back once, at its last memory tile (t % 4 = 3): block i of the one-row
  output array then holds, at column y, the loss entry of the labels at 1024 i + y and the running maximum of feature
  row 1024 i + y.  The eight blocks tile the row, so the whole array is that function of the column; the host then
  sums the row and divides by 8192.
-/
import proofs.«146312_j46334107189284_2_alg».proof.Proof.KernelRow
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.TileMax Cert.KernelIdeal.KernelRow

variable (m : (ℓ : Loc nD τ sig) → Buf (Elt Ideal) ℓ) (ρ : Dev nD → PrngReg)

/-- The loss row as one function of the label rows P, T and the matrices A (features), B (memory). -/
def lossRow (P T : S1x8192.Idx → EReal) (A B : Cert.Spec.Mat) : S1x8192.Idx → EReal :=
  fun j => Cert.Spec.lossK (P j) (T j) (Cert.Spec.kmax A B ⟨(j 1).val, idx2_lt1 j⟩)

/-- One entry of the block a last memory tile writes back. -/
theorem flushed_entry (c : Dev nD) (t : Fin cfg0.N) (h3 : t.val % 4 = 3) (u : Fin 1) (y : Fin 1024) :
    k0_pay3 (F := Ideal) (outsAt0 m c t.val t.isLt).2 (iblk m c 2 t) (iblk m c 3 t) (ix2 u y)
      = lossRow (V m c main_v12) (V m c main_v13) (V m c main_v8) (V m c main_v11)
          (((cfg0.win 4).blk t).view.emb (ix2 u y)) := by
  have hN : cfg0.N = 32 := N_0
  have ht := t.isLt
  obtain ⟨-, -, -, -, -, -, -, -, e0, e1⟩ := idx_facts t
  have hemb : ((cfg0.win 4).blk t).view.emb (ix2 u y)
      = ix2 u (⟨1024 * (t.val / 4) + y.val, by omega⟩ : Fin 8192) := by
    funext a; apply Fin.ext
    match a with
    | ⟨0, _⟩ => show win0_4.index t (0 : Fin 2) * 1 + 1 * u.val = u.val; rw [e0]; omega
    | ⟨1, _⟩ => show win0_4.index t (1 : Fin 2) * 1024 + 1 * y.val = 1024 * (t.val / 4) + y.val; rw [e1]; omega
  rw [hemb]
  refine (out_row_apply (outsAt0 m c t.val t.isLt).2 (iblk m c 2 t) (iblk m c 3 t) u y).trans ?_
  rw [predictions_block m c t u y ⟨1024 * (t.val / 4) + y.val, by omega⟩ rfl,
    targets_block m c t u y ⟨1024 * (t.val / 4) + y.val, by omega⟩ rfl,
    scratch_last m c t h3 u y ⟨1024 * (t.val / 4) + y.val, by omega⟩ rfl]
  rfl

/-- What a last memory tile writes back is its block of the loss row. -/
theorem flushed_eq (c : Dev nD) (t : Fin cfg0.N) (hf : (cfg0.win 4).flush t = true) :
    (dats m 0 c).flushed 4 t = ((cfg0.win 4).blk t).view.read (Elt Ideal)
      (lossRow (V m c main_v12) (V m c main_v13) (V m c main_v8) (V m c main_v11)) := by
  have h3 : t.val % 4 = 3 := (flush0_4 t).mp hf
  show (cfg0.win 4).cut (grid0.coords t) ((dats m 0 c).after 4 t) = _
  rw [after0_4, Accum.out_last m c t (by omega) h3]
  funext j
  rw [eq_ix2 (n0 := 1) (n1 := 1024) j]
  exact flushed_entry m c t h3 (j 0) (j 1)

/-- An index of the output row is in point t's block iff each coordinate is in the block's range on its axis. -/
theorem mem_blk (t : Fin cfg0.N) (i : S1x8192.Idx) :
    i ∈ ((cfg0.win 4).blk t).view.set ↔ ∀ a : Fin 2, win0_4.index t a * S1x1024.size a ≤ (i a).val
      ∧ (i a).val < win0_4.index t a * S1x1024.size a + S1x1024.size a := by
  show i ∈ ((View.whole main_v14).slice (win0_4.rect t)).set ↔ _
  rw [View.set_slice_whole, Rect.mem_set_unit]
  exact Iff.rfl

/-- The output array after the run: the loss row. -/
theorem final (c : Dev nD) : (dats m 0 c).arrAt 4 cfg0.N
    = lossRow (V m c main_v12) (V m c main_v13) (V m c main_v8) (V m c main_v11) :=
  (dats m 0 c).arrAt_eq_of_cover 4 _ (fun t hf => flushed_eq m c t hf) fun i => by
    have hN : cfg0.N = 32 := N_0
    have hi0 : (i 0).val < 1 := idx2_lt0 i
    have hi1 : (i 1).val < 8192 := idx2_lt1 i
    have hlt : 4 * ((i 1).val / 1024) + 3 < cfg0.N := by omega
    obtain ⟨-, -, -, -, -, -, -, -, e0, e1⟩ := idx_facts ⟨4 * ((i 1).val / 1024) + 3, hlt⟩
    refine ⟨⟨4 * ((i 1).val / 1024) + 3, hlt⟩, (flush0_4 _).mpr (by show (4 * ((i 1).val / 1024) + 3) % 4 = 3; omega), ?_⟩
    rw [mem_blk]
    intro a
    match a with
    | ⟨0, _⟩ =>
      show win0_4.index ⟨4 * ((i 1).val / 1024) + 3, hlt⟩ (0 : Fin 2) * 1 ≤ (i 0).val
        ∧ (i 0).val < win0_4.index ⟨4 * ((i 1).val / 1024) + 3, hlt⟩ (0 : Fin 2) * 1 + 1
      rw [e0]; omega
    | ⟨1, _⟩ =>
      show win0_4.index ⟨4 * ((i 1).val / 1024) + 3, hlt⟩ (1 : Fin 2) * 1024 ≤ (i 1).val
        ∧ (i 1).val < win0_4.index ⟨4 * ((i 1).val / 1024) + 3, hlt⟩ (1 : Fin 2) * 1024 + 1024
      rw [e1]; dsimp only; omega

/-- The mean of the loss row: what the host operations after the launch compute from the output array. -/
def result (c : Dev nD) : S_.Idx → EReal :=
  Host.divf (F := Ideal) (Host.reduceAdd (F := Ideal)
      (lossRow (V m c main_v12) (V m c main_v13) (V m c main_v8) (V m c main_v11))
      (constant (F := Ideal) S_ .f32 0x00000000#32) reducesTo_S1x8192_S_d0_1 h_S_)
    (constant (F := Ideal) S_ .f32 0x46000000#32)

/-- The result buffer after the host operations that follow the launch. -/
theorem tail_eq (c : Dev nD) :
    Pipeline.afterTail₀ cfgs (dats m) 0 (V0 m) [hostOps1] c main_v16 = result m c := by
  unfold Pipeline.afterTail₀
  show StableHlo.after hostOps1 _ (Proc.devRef .tc main_v16) = _
  after_results
  have e : Pipeline.withArrays (cfgs 0).spec c (V0 m c) (fun w => (dats m 0 c).arrAt w (cfgs 0).N)
      (Proc.tc.devRef main_v14) = lossRow (V m c main_v12) (V m c main_v13) (V m c main_v8) (V m c main_v11) :=
    (Pipeline.withArrays_arr spec0 launch0.win.arr_inj c _ _ 4).trans (final m c)
  rw [e]
  rfl

/-- The run, read: the result buffer at the mean of the loss row, the arguments unchanged. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.HostPrefix.lean ====
/-
  The four arrays the kernel's windows read, as the host operations before the launch leave them: the feature rows and
  the memory rows each divided by its row length (the larger of the Euclidean length and the small constant), and the
  two label vectors laid out as one row each.  The row-normalised matrices are the very terms the reference computes.
-/
import proofs.«146312_j46334107189284_2_alg».proof.Proof.Gen.KernelIdeal.Frame
import proofs.«146312_j46334107189284_2_alg».proof.Proof.Gen.ReferenceIdeal.Read
import Idealize.ShloMosaic.Lib.StableHlo.Run

noncomputable section

open Idealize.ShloMosaic Idealize.ShloMosaic.TcCoe Idealize.SL.Sem

namespace Cert.KernelIdeal.HostPrefix

open Cert.KernelIdeal Cert.KernelIdeal.Gen

variable (m : (ℓ : Loc nD τ sig) → Buf (Elt Ideal) ℓ)

/-- The feature window's array: the feature rows divided by their lengths. -/
theorem features_eq (c : Dev nD) :
    (V m c main_v8 : S8192x512.Idx → EReal)
      = Cert.ReferenceIdeal.Read.val_main_v10 (F := Ideal) (m ((c : Thread nD τ).loc main_arg2)) := by
  dsimp only [V, V0]
  simp only [hostOps0, hostOps0_1, hostOps0_2, hostOps0_3, List.flatten_cons, List.flatten_nil, List.append_nil,
    List.cons_append, List.nil_append]
  after_results
  rfl

/-- The memory window's array: the memory rows divided by their lengths. -/
theorem memory_eq (c : Dev nD) :
    (V m c main_v11 : S8192x512.Idx → EReal)
      = Cert.ReferenceIdeal.Read.val_main_v12 (F := Ideal) (m ((c : Thread nD τ).loc main_arg3)) := by
  dsimp only [V, V0]
  simp only [hostOps0, hostOps0_1, hostOps0_2, hostOps0_3, List.flatten_cons, List.flatten_nil, List.append_nil,
    List.cons_append, List.nil_append]
  after_results
  rfl

/-- The prediction window's array: the predictions as one row. -/
theorem predictions_eq (c : Dev nD) :
    (V m c main_v12 : S1x8192.Idx → EReal)
      = shapeCast S1x8192 (m ((c : Thread nD τ).loc main_arg0)) shapeCasts_S8192_S1x8192 := by
  dsimp only [V, V0]
  simp only [hostOps0, hostOps0_1, hostOps0_2, hostOps0_3, List.flatten_cons, List.flatten_nil, List.append_nil,
    List.cons_append, List.nil_append]
  after_results
  rfl

/-- The target window's array: the targets as one row. -/
theorem targets_eq (c : Dev nD) :
    (V m c main_v13 : S1x8192.Idx → EReal)
      = shapeCast S1x8192 (m ((c : Thread nD τ).loc main_arg1)) shapeCasts_S8192_S1x8192 := by
  dsimp only [V, V0]
  simp only [hostOps0, hostOps0_1, hostOps0_2, hostOps0_3, List.flatten_cons, List.flatten_nil, List.append_nil,
    List.cons_append, List.nil_append]
  after_results
  rfl

end Cert.KernelIdeal.HostPrefix

end
-- ==== Proof.RefValue.lean ====
/-
  The reference's loss row, entry by entry.

  Its similarity matrix has entry (n, r) = ∑ₖ F(n,k) M(r,k) for the row-normalised feature and memory matrices F and
  M; the row maximum is the fold of max from −∞ over the 8192 memory rows; entry n of the loss row is the loss entry of
  the two labels and that maximum.
-/
import proofs.«146312_j46334107189284_2_alg».proof.Proof.Gen.ReferenceIdeal.Read
import proofs.«146312_j46334107189284_2_alg».proof.Proof.Spec
import Idealize.ShloMosaic.PureOps.Reduce

noncomputable section

open scoped BigOperators
open Idealize.ShloMosaic Idealize.ShloMosaic.ValueIdx

namespace Cert.ReferenceIdeal.RefValue

open Cert.ReferenceIdeal Cert.ReferenceIdeal.Gen Cert.ReferenceIdeal.Read

variable (x0 x1 : (⟨S8192, .f32⟩ : BufTy).Contents (Elt Ideal)) (x2 x3 : (⟨S8192x512, .f32⟩ : BufTy).Contents (Elt Ideal))

/-- The similarity of feature row n and memory row r. -/
theorem sims_apply (n r : Fin 8192) :
    val_main_v13 (F := Ideal) x2 x3 (ix2 n r)
      = ∑ k : Fin 512, val_main_v10 (F := Ideal) x2 (ix2 n k) * val_main_v12 (F := Ideal) x3 (ix2 r k) := by
  rw [val_main_v13_apply]
  refine Finset.sum_congr rfl fun k _ => ?_
  have el : lidx_main_v13 (ix2 n r) k = ix2 n k :=
    funext fun a => Fin.ext (by match a with | ⟨0, _⟩ => rfl | ⟨1, _⟩ => rfl)
  have er : ridx_main_v13 (ix2 n r) k = ix2 r k :=
    funext fun a => Fin.ext (by match a with | ⟨0, _⟩ => rfl | ⟨1, _⟩ => rfl)
  rw [el, er]

/-- Over [a, b] reduced along its columns, the index above r with coordinate j is (r, j). -/
theorem lift_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- The largest similarity of feature row n: the plain maximum. -/
theorem rowmax_apply (n : Fin 8192) :
    val_main_v14 (F := Ideal) x2 x3 (ix1 n)
      = Cert.Spec.hmax (val_main_v10 (F := Ideal) x2) (val_main_v12 (F := Ideal) x3) n := by
  unfold val_main_v14
  rw [Host.reduce_eq_fold_single FloatOps.maximumf _ _ reducesTo_S8192x8192_S8192_d1 (by decide) h_S_ (ix1 n)]
  unfold Cert.Spec.hmax
  show (Finset.univ : Finset (Fin 8192)).fold max _ _ = _
  refine Finset.fold_congr fun r _ => ?_
  show val_main_v13 (F := Ideal) x2 x3 ((by decide : Shape.Reduces S8192x8192 [1] S8192).lift (ix1 n) r) = _
  rw [lift_last, sims_apply]

/-- Entry n of the loss row. -/
theorem row_apply (n : Fin 8192) :
    val_main_v21 (F := Ideal) x0 x1 x2 x3 (ix1 n)
      = Cert.Spec.lossH (x0 (ix1 n)) (x1 (ix1 n))
          (Cert.Spec.hmax (val_main_v10 (F := Ideal) x2) (val_main_v12 (F := Ideal) x3) n) := by
  rw [val_main_v21_apply, val_main_v20_apply, val_main_v18_apply, val_main_v16_apply, rowmax_apply]
  generalize Cert.Spec.hmax (val_main_v10 (F := Ideal) x2) (val_main_v12 (F := Ideal) x3) n = M
  rw [val_main_v19_apply, val_main_cst_4_apply, val_main_v17_apply, val_main_cst_3_apply, val_main_v15_apply,
    val_main_cst_2_apply, val_main_v2_apply, val_main_v1_apply, val_main_v0_apply, val_main_call0_v4_apply,
    val_main_call0_v6_apply, val_main_call0_v11_apply, val_main_call0_v3_apply, val_main_call0_v2_apply,
    val_main_call0_v5_apply, val_main_call0_v1_apply, val_main_call0_v0_apply, val_main_call0_cst_apply,
    val_main_call0_v10_apply, val_main_call0_v9_apply, val_main_call0_v8_apply, val_main_call0_v7_apply,
    val_main_call0_v3_apply, val_main_call0_v2_apply, val_main_call0_cst_apply]
  rfl

end Cert.ReferenceIdeal.RefValue

end
-- ==== Proof.CosineBound.lean ====
/-
  The cosine of two real vectors, each divided by a positive number at least its Euclidean length, is at least -1.

  By the Cauchy–Schwarz inequality (∑ a b)² ≤ (∑ a²)(∑ b²) ≤ (na · nb)², so |∑ a b| ≤ na · nb, and the sum of the
  products of the scaled entries is (∑ a b) / (na · nb) ≥ -1.
-/
import Mathlib

namespace Cert.CosineBound

open scoped BigOperators

/-- A non-negative number whose square root is at most `n` is at most `n * n`. -/
theorem le_mul_self_of_sqrt_le {S n : ℝ} (hS : 0 ≤ S) (h : Real.sqrt S ≤ n) : S ≤ n * n := by
  have h0 : 0 ≤ Real.sqrt S := Real.sqrt_nonneg S
  calc S = Real.sqrt S * Real.sqrt S := (Real.mul_self_sqrt hS).symm
    _ ≤ n * n := mul_le_mul h h h0 (h0.trans h)

/-- Two vectors scaled by positive numbers whose squares bound their squared lengths have inner product at least -1. -/
theorem neg_one_le_scaled_inner {K : ℕ} (a b : Fin K → ℝ) (na nb : ℝ) (hna : 0 < na) (hnb : 0 < nb)
    (ha : ∑ k, a k * a k ≤ na * na) (hb : ∑ k, b k * b k ≤ nb * nb) :
    -1 ≤ ∑ k, (a k / na) * (b k / nb) := by
  have hcs : (∑ k, a k * b k) ^ 2 ≤ (∑ k, a k ^ 2) * (∑ k, b k ^ 2) :=
    Finset.sum_mul_sq_le_sq_mul_sq Finset.univ a b
  have hA : ∑ k, a k ^ 2 ≤ na ^ 2 := by simpa [sq] using ha
  have hB : ∑ k, b k ^ 2 ≤ nb ^ 2 := by simpa [sq] using hb
  have hpos : 0 < na * nb := mul_pos hna hnb
  have hsq : (∑ k, a k * b k) ^ 2 ≤ (na * nb) ^ 2 :=
    calc (∑ k, a k * b k) ^ 2 ≤ (∑ k, a k ^ 2) * (∑ k, b k ^ 2) := hcs
      _ ≤ na ^ 2 * nb ^ 2 := mul_le_mul hA hB (Finset.sum_nonneg fun _ _ => sq_nonneg _) (sq_nonneg _)
      _ = (na * nb) ^ 2 := by ring
  have hb2 := abs_le_of_sq_le_sq' hsq hpos.le
  have h1 : ∑ k, (a k / na) * (b k / nb) = (∑ k, a k * b k) / (na * nb) := by
    rw [Finset.sum_div]
    refine Finset.sum_congr rfl fun k _ => ?_
    field_simp
  rw [h1, le_div_iff₀ hpos]
  linarith [hb2.1]

end Cert.CosineBound
-- ==== Proof.UnitBound.lean ====
/-
  The inner product of two real vectors of length 512, each divided by the larger of its Euclidean length and a fixed
  positive constant, is at least -1, stated for extended reals.

  Every quantity involved is the image of a real number: the sum of squares is a non-negative real S, its square root
  is the real √S, the larger of √S and the positive constant e is a positive real L with S ≤ L·L, each quotient is the
  real a k / L, and the sum of products is a real.  The inequality is then the Cauchy–Schwarz bound for scaled vectors.
-/
import proofs.«146312_j46334107189284_2_alg».proof.Proof.CosineBound
import Idealize.ShloMosaic.PureOps.Ideal.Laws

namespace Cert.UnitBound

open Idealize.ShloMosaic
open scoped BigOperators

noncomputable section

/-- The word `0xBF800000` denotes the real number -1. -/
theorem ofBits_neg_one : Ideal.ofBits .f32 0xBF800000#32 = ((-1 : ℝ) : EReal) := by
  simp [Ideal.ofBits, Ideal.ieee, -EReal.coe_mul]
  norm_num

/-- The word `0x322BCC77` denotes a positive real number. -/
theorem ofBits_eps : ∃ e : ℝ, 0 < e ∧ Ideal.ofBits .f32 0x322BCC77#32 = (e : EReal) := by
  simp [Ideal.ofBits, Ideal.ieee, -EReal.coe_mul]

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The divisor of a vector `a`: the larger of the square root of `0 + ∑ a²` and a positive real `e` is a positive
    real `L` whose square bounds `∑ a²`. -/
theorem divisor_eq (a : Fin 512 → ℝ) (e : ℝ) (he : 0 < e) :
    ∃ L : ℝ, 0 < L ∧ ∑ k, a k * a k ≤ L * L ∧
      max (Ideal.sqrt (Ideal.ofBits .f32 0x00000000#32 + ∑ k' : Fin 512, (a k' : EReal) * (a k' : EReal)))
        (e : EReal) = (L : EReal) := by
  have hS : 0 ≤ ∑ k, a k * a k := Finset.sum_nonneg fun k _ => mul_self_nonneg _
  refine ⟨max (Real.sqrt (∑ k, a k * a k)) e, lt_max_of_lt_right he,
    Cert.CosineBound.le_mul_self_of_sqrt_le hS (le_max_left _ _), ?_⟩
  have h1 : (∑ k' : Fin 512, (a k' : EReal) * (a k' : EReal)) = ((∑ k', a k' * a k' : ℝ) : EReal) := by
    rw [coe_finset_sum]
    exact Finset.sum_congr rfl fun k _ => (EReal.coe_mul _ _).symm
  rw [Ideal.ofBits_zero_f32, zero_add, h1, Ideal.sqrt_coe, if_neg (not_lt.mpr hS)]
  exact (EReal.coe_strictMono.monotone.map_max).symm

/-- The inner product of two vectors, each divided by the larger of its length and the constant `0x322BCC77`, is at
    least the value of the word `0xBF800000`, that is, -1. -/
theorem neg_one_le_unit_inner (a b : Fin 512 → ℝ) :
    Ideal.ofBits .f32 0xBF800000#32 ≤ ∑ k : Fin 512,
      Ideal.div (a k : EReal) (max (Ideal.sqrt (Ideal.ofBits .f32 0x00000000#32 + ∑ k' : Fin 512, (a k' : EReal) * (a k' : EReal))) (Ideal.ofBits .f32 0x322BCC77#32))
      * Ideal.div (b k : EReal) (max (Ideal.sqrt (Ideal.ofBits .f32 0x00000000#32 + ∑ k' : Fin 512, (b k' : EReal) * (b k' : EReal))) (Ideal.ofBits .f32 0x322BCC77#32)) := by
  obtain ⟨e, he, hE⟩ := ofBits_eps
  obtain ⟨La, hLa, haL, hDa⟩ := divisor_eq a e he
  obtain ⟨Lb, hLb, hbL, hDb⟩ := divisor_eq b e he
  rw [hE, hDa, hDb, ofBits_neg_one]
  have hterm : ∀ k : Fin 512, Ideal.div (a k : EReal) (La : EReal) * Ideal.div (b k : EReal) (Lb : EReal)
      = ((a k / La * (b k / Lb) : ℝ) : EReal) := by
    intro k
    rw [Ideal.div_coe hLa.ne', Ideal.div_coe hLb.ne', ← EReal.coe_mul, ← EReal.coe_mul, ← EReal.coe_mul]
    congr 1
    ring
  rw [Finset.sum_congr rfl fun k _ => hterm k, ← coe_finset_sum, EReal.coe_le_coe_iff]
  exact Cert.CosineBound.neg_one_le_scaled_inner a b La Lb hLa hLb haL hbL

end

end Cert.UnitBound
-- ==== Proof.Bridge.lean ====
/-
  The two results are one number when the feature and memory entries are real.

  Both programs end by averaging a loss row of 8192 entries, the kernel's laid out as one row of a matrix.  Entry n of
  either row is the loss entry of the labels at n and of the largest similarity of feature row n: the kernel's is the
  running maximum started at −1, the reference's the plain maximum.  Every similarity of row-normalised real vectors is
  at least −1 (Cauchy–Schwarz), so the two maxima agree, and so do the rows and their means.
-/
import proofs.«146312_j46334107189284_2_alg».proof.Proof.KernelValue
import proofs.«146312_j46334107189284_2_alg».proof.Proof.HostPrefix
import proofs.«146312_j46334107189284_2_alg».proof.Proof.RefValue
import proofs.«146312_j46334107189284_2_alg».proof.Proof.UnitBound

noncomputable section

open scoped BigOperators
open Idealize.ShloMosaic Idealize.ShloMosaic.ValueIdx

namespace Cert.Bridge

open Cert.ReferenceIdeal Cert.ReferenceIdeal.Gen Cert.ReferenceIdeal.Read

variable (x0 x1 : (⟨S8192, .f32⟩ : BufTy).Contents (Elt Ideal)) (x2 x3 : (⟨S8192x512, .f32⟩ : BufTy).Contents (Elt Ideal))

/-- An entry of the row-normalised feature matrix: the entry over the larger of its row's length and the constant. -/
theorem features_unit (n : Fin 8192) (k : Fin 512) :
    val_main_v10 (F := Ideal) x2 (ix2 n k)
      = Ideal.div (x2 (ix2 n k)) (max (Ideal.sqrt (Ideal.ofBits .f32 0x00000000#32
          + ∑ k' : Fin 512, x2 (ix2 n k') * x2 (ix2 n k'))) (Ideal.ofBits .f32 0x322BCC77#32)) := by
  have e9 : idx_main_v9 (ix2 n k) = ix2 n (0 : Fin 1) :=
    funext fun a => Fin.ext (by match a with | ⟨0, _⟩ => rfl | ⟨1, _⟩ => rfl)
  have e2 : idx_main_call1_v2 (ix2 n (0 : Fin 1)) = ix1 n :=
    funext fun a => Fin.ext (by match a with | ⟨0, _⟩ => rfl)
  have e1 : ∀ k' : Fin 512, idx_main_call1_v1 (ix1 n) k' = ix2 n k' := fun k' =>
    funext fun a => Fin.ext (by match a with | ⟨0, _⟩ => rfl | ⟨1, _⟩ => rfl)
  rw [val_main_v10_apply, val_main_v9_apply, e9, val_main_v5_apply, val_main_v3_apply, val_main_call1_v2_apply, e2,
    val_main_call1_v1_apply, val_main_v4_apply]
  simp only [e1]
  rfl

/-- An entry of the row-normalised memory matrix. -/
theorem memory_unit (r : Fin 8192) (k : Fin 512) :
    val_main_v12 (F := Ideal) x3 (ix2 r k)
      = Ideal.div (x3 (ix2 r k)) (max (Ideal.sqrt (Ideal.ofBits .f32 0x00000000#32
          + ∑ k' : Fin 512, x3 (ix2 r k') * x3 (ix2 r k'))) (Ideal.ofBits .f32 0x322BCC77#32)) := by
  have e11 : idx_main_v11 (ix2 r k) = ix2 r (0 : Fin 1) :=
    funext fun a => Fin.ext (by match a with | ⟨0, _⟩ => rfl | ⟨1, _⟩ => rfl)
  have e2 : idx_main_call2_v2 (ix2 r (0 : Fin 1)) = ix1 r :=
    funext fun a => Fin.ext (by match a with | ⟨0, _⟩ => rfl)
  have e1 : ∀ k' : Fin 512, idx_main_call2_v1 (ix1 r) k' = ix2 r k' := fun k' =>
    funext fun a => Fin.ext (by match a with | ⟨0, _⟩ => rfl | ⟨1, _⟩ => rfl)
  rw [val_main_v12_apply, val_main_v11_apply, e11, val_main_v8_apply, val_main_v6_apply, val_main_call2_v2_apply, e2,
    val_main_call2_v1_apply, val_main_v7_apply]
  simp only [e1]
  rfl

/-- No similarity of row-normalised real rows is below −1. -/
theorem sims_bound (h2 : ∀ i, ∃ r : ℝ, x2 i = (r : EReal)) (h3 : ∀ i, ∃ r : ℝ, x3 i = (r : EReal)) (n r : Fin 8192) :
    Cert.Spec.negOne ≤ ∑ k : Fin 512, val_main_v10 (F := Ideal) x2 (ix2 n k) * val_main_v12 (F := Ideal) x3 (ix2 r k) := by
  choose a ha using h2
  choose b hb using h3
  have h := Cert.UnitBound.neg_one_le_unit_inner (fun k => a (ix2 n k)) (fun k => b (ix2 r k))
  simp only [features_unit, memory_unit, ha, hb]
  exact h

/-- The one-row layout of a vector of 8192 entries, against the vector. -/
def rowEquiv : (⟨2, ![1, 8192]⟩ : Shape).Idx ≃ (⟨1, ![8192]⟩ : Shape).Idx where
  toFun j := ix1 (⟨(j 1).val, idx2_lt1 j⟩ : Fin 8192)
  invFun i := ix2 (0 : Fin 1) (⟨(i 0).val, (i 0).isLt⟩ : Fin 8192)
  left_inv j := by
    funext a
    match a with
    | ⟨0, _⟩ => exact Subsingleton.elim (α := Fin 1) _ _
    | ⟨1, _⟩ => rfl
  right_inv i := by
    funext a
    match a with
    | ⟨0, _⟩ => rfl

/-- A host sum of a one-row matrix to a scalar is the initial zero plus the sum of all entries. -/
theorem mean_apply (L : Cert.KernelIdeal.S1x8192.Idx → EReal) (i : Cert.KernelIdeal.S_.Idx) :
    Host.reduceAdd (F := Ideal) L (constant (F := Ideal) Cert.KernelIdeal.S_ .f32 0x00000000#32)
        Cert.KernelIdeal.Gen.reducesTo_S1x8192_S_d0_1 Cert.KernelIdeal.Gen.h_S_ i
      = Ideal.ofBits .f32 0x00000000#32 + ∑ j : Cert.KernelIdeal.S1x8192.Idx, L j := by
  simp only [Host.reduceAdd, Ideal.hostReduceAdd_def]
  exact Ideal.hostReduceAdd_total Cert.KernelIdeal.Gen.reducesTo_S1x8192_S_d0_1 (fun b => b.elim0) L _ i

/-- Entry by entry, the kernel's loss row is the reference's. -/
theorem row_eq (h2 : ∀ i, ∃ r : ℝ, x2 i = (r : EReal)) (h3 : ∀ i, ∃ r : ℝ, x3 i = (r : EReal))
    (hP : Cert.KernelIdeal.S8192.ShapeCasts Cert.KernelIdeal.S1x8192) (j : Cert.KernelIdeal.S1x8192.Idx) :
    Cert.KernelIdeal.KernelValue.lossRow (shapeCast Cert.KernelIdeal.S1x8192 x0 hP)
        (shapeCast Cert.KernelIdeal.S1x8192 x1 hP) (val_main_v10 (F := Ideal) x2) (val_main_v12 (F := Ideal) x3) j
      = val_main_v21 (F := Ideal) x0 x1 x2 x3 (rowEquiv j) := by
  obtain ⟨u, n, rfl⟩ : ∃ (u : Fin 1) (n : Fin 8192), j = ix2 u n := ⟨j 0, j 1, eq_ix2 j⟩
  show Cert.Spec.lossK (shapeCast Cert.KernelIdeal.S1x8192 x0 hP (ix2 u n))
      (shapeCast Cert.KernelIdeal.S1x8192 x1 hP (ix2 u n))
      (Cert.Spec.kmax (val_main_v10 (F := Ideal) x2) (val_main_v12 (F := Ideal) x3) n)
    = val_main_v21 (F := Ideal) x0 x1 x2 x3 (ix1 n)
  have eP : shapeCast Cert.KernelIdeal.S1x8192 x0 hP (ix2 u n) = x0 (ix1 n) :=
    Cert.KernelIdeal.TileMax.shapeCast_b_1b_apply (b := 8192) x0 hP u n
  have eT : shapeCast Cert.KernelIdeal.S1x8192 x1 hP (ix2 u n) = x1 (ix1 n) :=
    Cert.KernelIdeal.TileMax.shapeCast_b_1b_apply (b := 8192) x1 hP u n
  rw [eP, eT, Cert.ReferenceIdeal.RefValue.row_apply, Cert.Spec.lossK_eq,
    Cert.Spec.kmax_eq _ _ _ (sims_bound x2 x3 h2 h3 n)]

/-- The kernel's result is the reference's, as functions of the kernel's argument arrays, when the feature and
    memory entries are real numbers. -/
theorem result_eq (m : (ℓ : Loc Cert.KernelIdeal.nD Cert.KernelIdeal.τ Cert.KernelIdeal.sig) → Buf (Elt Ideal) ℓ)
    (c : Dev Cert.KernelIdeal.nD)
    (h2 : ∀ i, ∃ r : ℝ, m ((c.tc : Thread Cert.KernelIdeal.nD Cert.KernelIdeal.τ).loc Cert.KernelIdeal.main_arg2) i = (r : EReal))
    (h3 : ∀ i, ∃ r : ℝ, m ((c.tc : Thread Cert.KernelIdeal.nD Cert.KernelIdeal.τ).loc Cert.KernelIdeal.main_arg3) i = (r : EReal)) :
    Cert.KernelIdeal.KernelValue.result m c
      = val_main_v23 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  unfold Cert.KernelIdeal.KernelValue.result
  rw [Cert.KernelIdeal.HostPrefix.features_eq, Cert.KernelIdeal.HostPrefix.memory_eq,
    Cert.KernelIdeal.HostPrefix.predictions_eq, Cert.KernelIdeal.HostPrefix.targets_eq]
  funext i
  rw [val_main_v23_apply, val_main_v22_apply]
  show FloatOps.hostDivf (Host.reduceAdd (F := Ideal) _ _ _ _ i) _ = _
  rw [mean_apply, Fintype.sum_equiv rowEquiv _ _ (fun j => row_eq _ _ _ _ h2 h3 _ j)]
  rfl

end Cert.Bridge

end
-- ==== Proof.FiniteEntries.lean ====
/-
  The entries of the two matrices are real numbers when the finiteness predicate holds.

  The predicate is the conjunction, over four arrays, of "every entry x satisfies |x| < +∞", where |x| is the larger of
  x and -x.  At the extended reals |⊥| = |⊤| = ⊤, which is not below ⊤, so an entry that passes the test is neither
  infinity: it is a real number.
-/
import proofs.«146312_j46334107189284_2_alg».proof.Defs
import proofs.«146312_j46334107189284_2_alg».proof.Proof.Gen.Pre_finite_inputs
import Idealize.ShloMosaic.Lib.ReduceAll
import Idealize.ShloMosaic.Lib.ValueIdx
import Idealize.ShloMosaic.PureOps.Ideal.Laws

namespace Cert.FiniteEntries

open Idealize.ShloMosaic Idealize.SL.Sem

/-- The scalar shape has exactly one index. -/
instance : Subsingleton Cert.Pre_finite_inputs.S_.Idx := ⟨fun a b => funext fun d => d.elim0⟩

/-- The word `0x7F800000` denotes +∞. -/
theorem ofBits_inf : Ideal.ofBits .f32 0x7F800000#32 = ⊤ := by
  simp [Ideal.ofBits, Ideal.ieee]

/-- An extended real whose absolute value is strictly below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- If the finiteness predicate of four arrays is all ones, every entry of the third and of the fourth array is a real
    number. -/
theorem real_of_fn (x0 x1 : FVec Ideal Cert.Pre_finite_inputs.S8192 .f32)
    (x2 x3 : FVec Ideal Cert.Pre_finite_inputs.S8192x512 .f32)
    (h : Cert.Pre_finite_inputs.fn (F := Ideal) x0 x1 x2 x3 = fun _ => 1#1) :
    (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h13, h17⟩ := IntOp.andi_eq_one.1 h0
  obtain ⟨h8, h12⟩ := IntOp.andi_eq_one.1 h13
  refine ⟨fun i => real_of_abs_lt_inf (x2 i) ?_, fun i => real_of_abs_lt_inf (x3 i) ?_⟩
  · exact Host.reduce_andi_all _ _ _ _ _ h12 i
  · exact Host.reduce_andi_all _ _ _ _ _ h17 i

end Cert.FiniteEntries
-- ==== Proof.lean ====
/-
  A novelty-weighted binary cross-entropy: the mean over n of (softplus pₙ − pₙ tₙ)(1 + 2 (1 − sₙ)), where sₙ is the
  largest cosine similarity between feature row n and any memory row (rows divided by the larger of their Euclidean
  length and a small constant).

  The kernel tiles the similarity matrix: for each tile of 1024 feature rows it walks four tiles of 2048 memory rows,
  keeping per feature row a running maximum that starts at −1, and at the fourth tile writes the loss entries; the
  host normalises the rows before the launch and averages afterwards.  The reference takes each row's maximum over all
  8192 memory rows at once.  Over the extended reals the two results are equal for finite inputs: by the
  Cauchy–Schwarz inequality no similarity of normalised real rows is below −1, so starting the maximum at −1 changes
  nothing; sums and tilings are re-associations.  Without finiteness a similarity can be −∞ and the two maxima differ.

  The three frames: the two kernels' are the generated frame theorems, the reference's its run with the result
  dropped.  The ideal pass rewrote nothing.
-/
import proofs.«146312_j46334107189284_2_alg».proof.Defs
import proofs.«146312_j46334107189284_2_alg».proof.Proof.Gen.Kernel
import proofs.«146312_j46334107189284_2_alg».proof.Proof.Gen.Kernel.Skeleton
import proofs.«146312_j46334107189284_2_alg».proof.Proof.Gen.Kernel.Launch
import proofs.«146312_j46334107189284_2_alg».proof.Proof.Gen.Kernel.Points
import proofs.«146312_j46334107189284_2_alg».proof.Proof.Gen.Kernel.Frame
import proofs.«146312_j46334107189284_2_alg».proof.Proof.Gen.KernelIdeal
import proofs.«146312_j46334107189284_2_alg».proof.Proof.Gen.KernelIdeal.Skeleton
import proofs.«146312_j46334107189284_2_alg».proof.Proof.Gen.KernelIdeal.Launch
import proofs.«146312_j46334107189284_2_alg».proof.Proof.Gen.KernelIdeal.Points
import proofs.«146312_j46334107189284_2_alg».proof.Proof.Gen.KernelIdeal.Frame
import proofs.«146312_j46334107189284_2_alg».proof.Proof.Gen.ReferenceIdeal
import proofs.«146312_j46334107189284_2_alg».proof.Proof.Gen.ReferenceIdeal.Run
import proofs.«146312_j46334107189284_2_alg».proof.Proof.Gen.ReferenceIdeal.Read
import proofs.«146312_j46334107189284_2_alg».proof.Proof.Gen.Pre_finite_inputs
import proofs.«146312_j46334107189284_2_alg».proof.Proof.Bridge
import proofs.«146312_j46334107189284_2_alg».proof.Proof.FiniteEntries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, with finite inputs, both programs end at the mean of the same loss
    row. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h2, h3⟩ := Cert.FiniteEntries.real_of_fn _ _ _ _ (hpre c)
  rw [Cert.ReferenceIdeal.Read.val_main_v23_eq, (hagree c).1, (hagree c).2.1, (hagree c).2.2.1, (hagree c).2.2.2]
  exact (Cert.Bridge.result_eq m c h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
